-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 63
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x128, .bf16⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .bf16⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S128x128, .f32⟩
  | .hbm, ⟨41, _⟩ => ⟨S1x128, .f32⟩
  | .hbm, ⟨42, _⟩ => ⟨S128x128, .f32⟩
  | .hbm, ⟨43, _⟩ => ⟨S50000x128, .f32⟩
  | .hbm, ⟨44, _⟩ => ⟨S50000x128, .bf16⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .bf16⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S128x128, .f32⟩
  | .hbm, ⟨60, _⟩ => ⟨S1x128, .f32⟩
  | .hbm, ⟨61, _⟩ => ⟨S128x128, .f32⟩
  | .hbm, ⟨62, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S_, .f32⟩
  | .hbm, ⟨62, _⟩ => ⟨S600000, .f32⟩
  | .hbm, ⟨63, _⟩ => ⟨S_, .f32⟩
  | .hbm, ⟨64, _⟩ => ⟨S50000, .f32⟩
  | .hbm, ⟨65, _⟩ => ⟨S600000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S128x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S128x128, .f32⟩
  | .hbm, ⟨79, _⟩ => ⟨S50000x128, .f32⟩
  | .hbm, ⟨80, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run with its RESULT read: every weakly fair execution of @main ends with the
  result buffer holding what the second pallas_call's write-backs leave in it, and the argument arrays unchanged.

  @main is four segments: host operations, the first pallas_call, host operations, the second pallas_call. The
  buffer contents at the segment boundaries are a fold from the launch memory (`W0` … `W4`); the last thread
  state holds every unscoped buffer at `W4`, and the result buffer is one of them. Read against the final state
  this gives the result at `W4`, beside the arguments at their launch contents.
-/
import proofs.«169460_j14465449853446_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main with the result buffer read at the last boundary's contents `W4`. -/
theorem run_result : θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.KernelBlock.lean ====
/-
  One block of the dense layer, read at an entry.

  A grid point of either pallas_call holds a 5000-row block of the aggregated messages `msg`, the same rows of the
  inverse-degree column `inv`, the same rows of the node features `x`, and the two 128 × 128 weight matrices and the
  1 × 128 bias whole. At row p and column q of the block the body computes
      (Σₖ (msg[p,k] · inv[p,0]) · Wl[k,q]) + b[0,q] + Σₖ x[p,k] · Wr[k,q],
  the first call followed by a maximum with zero. On the extended reals a change of float format is the identity,
  so the casts to bf16 in front of the two matrix products leave no trace.
-/
import proofs.«169460_j14465449853446_2_alg».proof.Proof.Gen.KernelIdeal.Skeleton
import proofs.«169460_j14465449853446_2_alg».proof.Proof.LibMatmul
import proofs.«169460_j14465449853446_2_alg».proof.Proof.LibKeepdims
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-! ## The matrix product of a block: rows of the left operand against columns of the right -/

theorem lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a 5000 × 128 block with a 128 × 128 matrix into zeros, at (p, q): Σₖ l[p,k] · r[k,q]. -/
theorem matmul_at {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) :=
  Cert.LibMatmul.matmul_zero_sum1 dot_S5000x128_S128x128_S5000x128_1_0_0_1_n_n none 128 rfl rfl l r (ix2 p q)
    (fun k => ix2 p k) (fun k => ix2 k q)
    (fun q' k hk => funext fun a => Fin.ext (by
      match a with
      | ⟨0, _⟩ => exact lhs0 _ _
      | ⟨1, _⟩ => exact (lhs1 _ _).trans hk))
    (fun q' k hk => funext fun a => Fin.ext (by
      match a with
      | ⟨0, _⟩ => exact (rhs0 _ _).trans hk
      | ⟨1, _⟩ => exact rhs1 _ _))

/-! ## The two broadcasts: the inverse-degree column along the columns, the bias row along the rows -/

/-- The 1 × 128 bias row broadcast to 5000 × 128 reads, at (p, q), the row at (0, q). -/
theorem row_at {α : Type} (v : S1x128.Idx → α) (h : S1x128.Broadcasts S5000x128) (p : Fin 5000) (q : Fin 128) :
    broadcastTo S5000x128 v h (ix2 p q) = v (ix2 (0 : Fin 1) q) := by
  refine broadcastTo_apply v h (ix2 p q) (ix2 (0 : Fin 1) q) fun ax => ?_
  match ax with
  | ⟨0, _⟩ => show (0 : ℕ) = if (1 : ℕ) = 1 then 0 else _; rw [if_pos rfl]
  | ⟨1, _⟩ => show q.val = if (128 : ℕ) = 1 then 0 else q.val; rw [if_neg (by decide)]

/-- The 5000 × 1 inverse-degree column broadcast to 5000 × 128 reads, at (p, q), the column at (p, 0). -/
theorem col_at {α : Type} (v : S5000x1.Idx → α) (h : S5000x1.Broadcasts S5000x128) (p : Fin 5000) (q : Fin 128) :
    broadcastTo S5000x128 v h (ix2 p q) = v (ix2 p (0 : Fin 1)) :=
  Cert.LibKeepdims.broadcastTo_a1_ab_apply (a := 5000) (b := 128) v h p q

/-! ## The two bodies at an entry -/

/-- The first call's body at (p, q). -/
theorem k0_pay1_apply (inv : Vec Ideal S5000x1 .f32) (msg x : Vec Ideal S5000x128 .f32) (wl wr : Vec Ideal S128x128 .f32)
    (b : Vec Ideal S1x128 .f32) (p : Fin 5000) (q : Fin 128) :
    k0_pay1 (F := Ideal) inv msg x wl wr b (ix2 p q)
      = max (((∑ k : Fin 128, (msg (ix2 p k) * inv (ix2 p (0 : Fin 1))) * wl (ix2 k q)) + b (ix2 (0 : Fin 1) q))
          + ∑ k : Fin 128, x (ix2 p k) * wr (ix2 k q)) (Ideal.ofBits .f32 0x00000000#32) := by
  unfold k0_pay1
  rw [maximumf_apply, addf_apply, addf_apply, matmul_at, matmul_at, row_at]
  simp only [shapeCast_self, truncf_apply, mulf_apply, col_at]
  rfl

/-- The second call's body at (p, q): the same without the maximum. -/
theorem k1_pay1_apply (inv : Vec Ideal S5000x1 .f32) (msg x : Vec Ideal S5000x128 .f32) (wl wr : Vec Ideal S128x128 .f32)
    (b : Vec Ideal S1x128 .f32) (p : Fin 5000) (q : Fin 128) :
    k1_pay1 (F := Ideal) inv msg x wl wr b (ix2 p q)
      = ((∑ k : Fin 128, (msg (ix2 p k) * inv (ix2 p (0 : Fin 1))) * wl (ix2 k q)) + b (ix2 (0 : Fin 1) q))
          + ∑ k : Fin 128, x (ix2 p k) * wr (ix2 k q) := by
  unfold k1_pay1
  rw [addf_apply, addf_apply, matmul_at, matmul_at, row_at]
  simp only [shapeCast_self, truncf_apply, mulf_apply, col_at]

end Cert.KernelIdeal.Block

end
-- ==== Proof.KernelRegions.lean ====
/-
  What each pallas_call leaves in its output array, as one function of the arrays it reads.

  Both calls run the dense body over a grid of ten points. Point t stages rows 5000·t … 5000·t + 4999 of the
  aggregated messages, of the inverse-degree column and of the node features, and the two weight matrices and the
  bias whole; it writes back the same rows of the output. The ten row blocks tile the 50000 rows, so the output
  array ends holding, at row r and column q,
      (Σₖ (msg[r,k] · inv[r,0]) · Wl[k,q]) + b[0,q] + Σₖ x[r,k] · Wr[k,q]
  (the first call: its maximum with zero), whatever it held before.
-/
import proofs.«169460_j14465449853446_2_alg».proof.Proof.Gen.KernelIdeal.Frame
import proofs.«169460_j14465449853446_2_alg».proof.Proof.KernelBlock
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

/-- Zero offsets, however spelt. -/
theorem hz : (![0, 0] : Fin 2 → Nat) = fun _ => 0 := funext fun a => by fin_cases a <;> rfl

/-- The dense layer at row r and column q, over the kernel's operand arrays. -/
def denseEntry (msg x : S50000x128.Idx → EReal) (inv : S50000x1.Idx → EReal) (wl wr : S128x128.Idx → EReal) (b : S1x128.Idx → EReal)
    (r : Fin 50000) (q : Fin 128) : EReal :=
  ((∑ k : Fin 128, (msg (ix2 r k) * inv (ix2 r (0 : Fin 1))) * wl (ix2 k q)) + b (ix2 (0 : Fin 1) q))
    + ∑ k : Fin 128, x (ix2 r k) * wr (ix2 k q)

variable (V : (c : Dev nD) → (b : Ref sig .tc) → Buf (Elt Ideal) ((c : Thread nD τ).loc b))

/-! # The first call -/

/-- What the first call leaves in its output array, as one function of the six arrays it reads. -/
def G0 (msg x : S50000x128.Idx → EReal) (inv : S50000x1.Idx → EReal) (wl wr : S128x128.Idx → EReal) (b : S1x128.Idx → EReal) :
    S50000x128.Idx → EReal := fun i => max (denseEntry msg x inv wl wr b (i 0) (i 1)) (Ideal.ofBits .f32 0x00000000#32)

theorem G0_at (msg x : S50000x128.Idx → EReal) (inv : S50000x1.Idx → EReal) (wl wr : S128x128.Idx → EReal) (b : S1x128.Idx → EReal)
    (r : Fin 50000) (q : Fin 128) : G0 msg x inv wl wr b (ix2 r q) = max (denseEntry msg x inv wl wr b r q) (Ideal.ofBits .f32 0x00000000#32) := rfl

/-- The printed index maps, decided over the ten grid points: the three row-tiled inputs and the output are at block
    row `t`, the weights and the bias at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

set_option maxHeartbeats 4000000 in
/-- Grid point `t` writes back the rows 5000·t … 5000·t + 4999 of `G0` of the arrays as the call finds them. -/
theorem flushed0_eq (c : Dev nD) (t : Fin cfg0.N) :
    (dat0 V c).flushed 6 t = ((cfg0.win 6).blk t).view.read (Elt Ideal) (G0 (V c main_v24) (V c main_arg0) (V c main_v12) (V c main_v25) (V c main_v27) (V c main_v26)) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz, View.ld_unit_zero (S := S128x128) hz, View.ld_unit_zero (S := S1x128) hz]
  have hN : t.val < 10 := lt_of_lt_of_eq t.isLt N_0
  obtain ⟨e00, e01, e10, e11, e20, e21, e30, e31, e40, e41, e50, e51, e60, e61⟩ := idx_facts0 t
  funext j
  obtain ⟨p, q, rfl⟩ : ∃ (p : Fin 5000) (q : Fin 128), j = ix2 p q := ⟨j 0, j 1, eq_ix2 j⟩
  have hp : p.val < 5000 := p.isLt
  let R : Fin 50000 := ⟨t.val * 5000 + p.val, by omega⟩
  have hR : R.val = t.val * 5000 + p.val := rfl
  have h6 : ((cfg0.win 6).blk t).view.emb (ix2 p q) = ix2 R q := funext fun a => Fin.ext (by
    match a with
    | ⟨0, _⟩ => show win0_6.index t (0 : Fin 2) * 5000 + 1 * p.val = R.val; omega
    | ⟨1, _⟩ => show win0_6.index t (1 : Fin 2) * 128 + 1 * q.val = q.val; omega)
  have h0 : ∀ k : Fin 128, iblk0 V c 0 t (ix2 p k) = V c main_v24 (ix2 R k) := fun k =>
    congrArg (V c main_v24) (funext fun a => Fin.ext (by
      match a with
      | ⟨0, _⟩ => show win0_0.index t (0 : Fin 2) * 5000 + 1 * p.val = R.val; omega
      | ⟨1, _⟩ => show win0_0.index t (1 : Fin 2) * 128 + 1 * k.val = k.val; omega))
  have h1 : iblk0 V c 1 t (ix2 p (0 : Fin 1)) = V c main_v12 (ix2 R (0 : Fin 1)) :=
    congrArg (V c main_v12) (funext fun a => Fin.ext (by
      match a with
      | ⟨0, _⟩ => show win0_1.index t (0 : Fin 2) * 5000 + 1 * p.val = R.val; omega
      | ⟨1, _⟩ => show win0_1.index t (1 : Fin 2) * 1 + 1 * (0 : Fin 1).val = (0 : Fin 1).val; omega))
  have h2 : ∀ k : Fin 128, iblk0 V c 2 t (ix2 p k) = V c main_arg0 (ix2 R k) := fun k =>
    congrArg (V c main_arg0) (funext fun a => Fin.ext (by
      match a with
      | ⟨0, _⟩ => show win0_2.index t (0 : Fin 2) * 5000 + 1 * p.val = R.val; omega
      | ⟨1, _⟩ => show win0_2.index t (1 : Fin 2) * 128 + 1 * k.val = k.val; omega))
  have h3 : ∀ k : Fin 128, iblk0 V c 3 t (ix2 k q) = V c main_v25 (ix2 k q) := fun k =>
    congrArg (V c main_v25) (funext fun a => Fin.ext (by
      match a with
      | ⟨0, _⟩ => show win0_3.index t (0 : Fin 2) * 128 + 1 * k.val = k.val; omega
      | ⟨1, _⟩ => show win0_3.index t (1 : Fin 2) * 128 + 1 * q.val = q.val; omega))
  have h4 : iblk0 V c 4 t (ix2 (0 : Fin 1) q) = V c main_v26 (ix2 (0 : Fin 1) q) :=
    congrArg (V c main_v26) (funext fun a => Fin.ext (by
      match a with
      | ⟨0, _⟩ => show win0_4.index t (0 : Fin 2) * 1 + 1 * (0 : Fin 1).val = (0 : Fin 1).val; omega
      | ⟨1, _⟩ => show win0_4.index t (1 : Fin 2) * 128 + 1 * q.val = q.val; omega))
  have h5 : ∀ k : Fin 128, iblk0 V c 5 t (ix2 k q) = V c main_v27 (ix2 k q) := fun k =>
    congrArg (V c main_v27) (funext fun a => Fin.ext (by
      match a with
      | ⟨0, _⟩ => show win0_5.index t (0 : Fin 2) * 128 + 1 * k.val = k.val; omega
      | ⟨1, _⟩ => show win0_5.index t (1 : Fin 2) * 128 + 1 * q.val = q.val; omega))
  show k0_pay1 (F := Ideal) (iblk0 V c 1 t) (iblk0 V c 0 t) (iblk0 V c 2 t) (iblk0 V c 3 t) (iblk0 V c 5 t) (iblk0 V c 4 t) (ix2 p q)
    = G0 (V c main_v24) (V c main_arg0) (V c main_v12) (V c main_v25) (V c main_v27) (V c main_v26) (((cfg0.win 6).blk t).view.emb (ix2 p q))
  rw [h6, G0_at]
  refine (Cert.KernelIdeal.Block.k0_pay1_apply (iblk0 V c 1 t) (iblk0 V c 0 t) (iblk0 V c 2 t) (iblk0 V c 3 t) (iblk0 V c 5 t) (iblk0 V c 4 t) p q).trans ?_
  simp only [h0, h1, h2, h3, h4, h5]
  rfl

/-- An index of the output array is in point `t`'s block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v28).slice (win0_6.rect t)).set ↔ _
  rw [View.set_slice_whole, Rect.mem_set_unit]
  exact Iff.rfl

/-- Every row is in some point's block: row r in the block of point r / 5000. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hlt : (i 0).val / 5000 < cfg0.N := by rw [show cfg0.N = 10 from N_0]; omega
  obtain ⟨e00, e01, e10, e11, e20, e21, e30, e31, e40, e41, e50, e51, e60, e61⟩ := idx_facts0 ⟨(i 0).val / 5000, hlt⟩
  have e60' : win0_6.index ⟨(i 0).val / 5000, hlt⟩ (0 : Fin 2) = (i 0).val / 5000 := e60
  refine ⟨⟨(i 0).val / 5000, hlt⟩, flush0_6 _, ?_⟩
  rw [mem_blk0]
  intro a
  match a with
  | ⟨0, _⟩ => show win0_6.index ⟨(i 0).val / 5000, hlt⟩ (0 : Fin 2) * 5000 ≤ (i 0).val ∧ (i 0).val < win0_6.index ⟨(i 0).val / 5000, hlt⟩ (0 : Fin 2) * 5000 + 5000; omega
  | ⟨1, _⟩ => show win0_6.index ⟨(i 0).val / 5000, hlt⟩ (1 : Fin 2) * 128 ≤ (i 1).val ∧ (i 1).val < win0_6.index ⟨(i 0).val / 5000, hlt⟩ (1 : Fin 2) * 128 + 128; omega

/-- The output array after the first call: `G0` of the arrays as the call finds them. -/
theorem final0 (c : Dev nD) : (dat0 V c).arrAt 6 cfg0.N = G0 (V c main_v24) (V c main_arg0) (V c main_v12) (V c main_v25) (V c main_v27) (V c main_v26) :=
  (dat0 V c).arrAt_eq_of_cover 6 (G0 (V c main_v24) (V c main_arg0) (V c main_v12) (V c main_v25) (V c main_v27) (V c main_v26)) (fun t _ => flushed0_eq V c t) (fun i => cover0 i)

/-! # The second call -/

/-- What the second call leaves in its output array, as one function of the six arrays it reads. -/
def G1 (msg x : S50000x128.Idx → EReal) (inv : S50000x1.Idx → EReal) (wl wr : S128x128.Idx → EReal) (b : S1x128.Idx → EReal) :
    S50000x128.Idx → EReal := fun i => denseEntry msg x inv wl wr b (i 0) (i 1)

theorem G1_at (msg x : S50000x128.Idx → EReal) (inv : S50000x1.Idx → EReal) (wl wr : S128x128.Idx → EReal) (b : S1x128.Idx → EReal)
    (r : Fin 50000) (q : Fin 128) : G1 msg x inv wl wr b (ix2 r q) = denseEntry msg x inv wl wr b r q := rfl

/-- The printed index maps, decided over the ten grid points: the three row-tiled inputs and the output are at block
    row `t`, the weights and the bias at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

set_option maxHeartbeats 4000000 in
/-- Grid point `t` writes back the rows 5000·t … 5000·t + 4999 of `G1` of the arrays as the call finds them. -/
theorem flushed1_eq (c : Dev nD) (t : Fin cfg1.N) :
    (dat1 V c).flushed 6 t = ((cfg1.win 6).blk t).view.read (Elt Ideal) (G1 (V c main_v40) (V c main_v28) (V c main_v12) (V c main_v41) (V c main_v43) (V c main_v42)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz, View.ld_unit_zero (S := S1x128) hz]
  have hN : t.val < 10 := lt_of_lt_of_eq t.isLt N_1
  obtain ⟨e00, e01, e10, e11, e20, e21, e30, e31, e40, e41, e50, e51, e60, e61⟩ := idx_facts1 t
  funext j
  obtain ⟨p, q, rfl⟩ : ∃ (p : Fin 5000) (q : Fin 128), j = ix2 p q := ⟨j 0, j 1, eq_ix2 j⟩
  have hp : p.val < 5000 := p.isLt
  let R : Fin 50000 := ⟨t.val * 5000 + p.val, by omega⟩
  have hR : R.val = t.val * 5000 + p.val := rfl
  have h6 : ((cfg1.win 6).blk t).view.emb (ix2 p q) = ix2 R q := funext fun a => Fin.ext (by
    match a with
    | ⟨0, _⟩ => show win1_6.index t (0 : Fin 2) * 5000 + 1 * p.val = R.val; omega
    | ⟨1, _⟩ => show win1_6.index t (1 : Fin 2) * 128 + 1 * q.val = q.val; omega)
  have h0 : ∀ k : Fin 128, iblk1 V c 0 t (ix2 p k) = V c main_v40 (ix2 R k) := fun k =>
    congrArg (V c main_v40) (funext fun a => Fin.ext (by
      match a with
      | ⟨0, _⟩ => show win1_0.index t (0 : Fin 2) * 5000 + 1 * p.val = R.val; omega
      | ⟨1, _⟩ => show win1_0.index t (1 : Fin 2) * 128 + 1 * k.val = k.val; omega))
  have h1 : iblk1 V c 1 t (ix2 p (0 : Fin 1)) = V c main_v12 (ix2 R (0 : Fin 1)) :=
    congrArg (V c main_v12) (funext fun a => Fin.ext (by
      match a with
      | ⟨0, _⟩ => show win1_1.index t (0 : Fin 2) * 5000 + 1 * p.val = R.val; omega
      | ⟨1, _⟩ => show win1_1.index t (1 : Fin 2) * 1 + 1 * (0 : Fin 1).val = (0 : Fin 1).val; omega))
  have h2 : ∀ k : Fin 128, iblk1 V c 2 t (ix2 p k) = V c main_v28 (ix2 R k) := fun k =>
    congrArg (V c main_v28) (funext fun a => Fin.ext (by
      match a with
      | ⟨0, _⟩ => show win1_2.index t (0 : Fin 2) * 5000 + 1 * p.val = R.val; omega
      | ⟨1, _⟩ => show win1_2.index t (1 : Fin 2) * 128 + 1 * k.val = k.val; omega))
  have h3 : ∀ k : Fin 128, iblk1 V c 3 t (ix2 k q) = V c main_v41 (ix2 k q) := fun k =>
    congrArg (V c main_v41) (funext fun a => Fin.ext (by
      match a with
      | ⟨0, _⟩ => show win1_3.index t (0 : Fin 2) * 128 + 1 * k.val = k.val; omega
      | ⟨1, _⟩ => show win1_3.index t (1 : Fin 2) * 128 + 1 * q.val = q.val; omega))
  have h4 : iblk1 V c 4 t (ix2 (0 : Fin 1) q) = V c main_v42 (ix2 (0 : Fin 1) q) :=
    congrArg (V c main_v42) (funext fun a => Fin.ext (by
      match a with
      | ⟨0, _⟩ => show win1_4.index t (0 : Fin 2) * 1 + 1 * (0 : Fin 1).val = (0 : Fin 1).val; omega
      | ⟨1, _⟩ => show win1_4.index t (1 : Fin 2) * 128 + 1 * q.val = q.val; omega))
  have h5 : ∀ k : Fin 128, iblk1 V c 5 t (ix2 k q) = V c main_v43 (ix2 k q) := fun k =>
    congrArg (V c main_v43) (funext fun a => Fin.ext (by
      match a with
      | ⟨0, _⟩ => show win1_5.index t (0 : Fin 2) * 128 + 1 * k.val = k.val; omega
      | ⟨1, _⟩ => show win1_5.index t (1 : Fin 2) * 128 + 1 * q.val = q.val; omega))
  show k1_pay1 (F := Ideal) (iblk1 V c 1 t) (iblk1 V c 0 t) (iblk1 V c 2 t) (iblk1 V c 3 t) (iblk1 V c 5 t) (iblk1 V c 4 t) (ix2 p q)
    = G1 (V c main_v40) (V c main_v28) (V c main_v12) (V c main_v41) (V c main_v43) (V c main_v42) (((cfg1.win 6).blk t).view.emb (ix2 p q))
  rw [h6, G1_at]
  refine (Cert.KernelIdeal.Block.k1_pay1_apply (iblk1 V c 1 t) (iblk1 V c 0 t) (iblk1 V c 2 t) (iblk1 V c 3 t) (iblk1 V c 5 t) (iblk1 V c 4 t) p q).trans ?_
  simp only [h0, h1, h2, h3, h4, h5]
  rfl

/-- An index of the output array is in point `t`'s block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v44).slice (win1_6.rect t)).set ↔ _
  rw [View.set_slice_whole, Rect.mem_set_unit]
  exact Iff.rfl

/-- Every row is in some point's block: row r in the block of point r / 5000. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hlt : (i 0).val / 5000 < cfg1.N := by rw [show cfg1.N = 10 from N_1]; omega
  obtain ⟨e00, e01, e10, e11, e20, e21, e30, e31, e40, e41, e50, e51, e60, e61⟩ := idx_facts1 ⟨(i 0).val / 5000, hlt⟩
  have e60' : win1_6.index ⟨(i 0).val / 5000, hlt⟩ (0 : Fin 2) = (i 0).val / 5000 := e60
  refine ⟨⟨(i 0).val / 5000, hlt⟩, flush1_6 _, ?_⟩
  rw [mem_blk1]
  intro a
  match a with
  | ⟨0, _⟩ => show win1_6.index ⟨(i 0).val / 5000, hlt⟩ (0 : Fin 2) * 5000 ≤ (i 0).val ∧ (i 0).val < win1_6.index ⟨(i 0).val / 5000, hlt⟩ (0 : Fin 2) * 5000 + 5000; omega
  | ⟨1, _⟩ => show win1_6.index ⟨(i 0).val / 5000, hlt⟩ (1 : Fin 2) * 128 ≤ (i 1).val ∧ (i 1).val < win1_6.index ⟨(i 0).val / 5000, hlt⟩ (1 : Fin 2) * 128 + 128; omega

/-- The output array after the second call: `G1` of the arrays as the call finds them. -/
theorem final1 (c : Dev nD) : (dat1 V c).arrAt 6 cfg1.N = G1 (V c main_v40) (V c main_v28) (V c main_v12) (V c main_v41) (V c main_v43) (V c main_v42) :=
  (dat1 V c).arrAt_eq_of_cover 6 (G1 (V c main_v40) (V c main_v28) (V c main_v12) (V c main_v41) (V c main_v43) (V c main_v42)) (fun t _ => flushed1_eq V c t) (fun i => cover1 i)

end Cert.KernelIdeal.Regions

end
-- ==== Proof.RefLayer.lean ====
/-
  The reference, layer by layer.

  The reference applies the same graph layer twice. With e the edge list (row 0 the sources, row 1 the
  destinations), one layer of node features h is
      agg e h  = the sum, into each destination's row, of the source rows of h           (gather, then scatter-add)
      dmax e   = max (number of edges into each node, 1)
      layer    = ((agg e h / dmax e) · Wlᵀ + b) + h · Wrᵀ
  and the result is  layer₂ (relu (layer₁ x)).  Read at row r and column q a layer is
      (Σₖ (agg[r,k] / dmax[r]) · Wl[q,k]) + b[q] + Σₖ h[r,k] · Wr[q,k].
  The gather and the scatter-add stay whole-array operations here: both programs apply them to the same
  arrays, so nothing of them is opened.
-/
import proofs.«169460_j14465449853446_2_alg».proof.Proof.Gen.ReferenceIdeal.Read
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.Layer

open Cert.ReferenceIdeal Cert.ReferenceIdeal.Gen Idealize.ShloMosaic Idealize.ShloMosaic.TcCoe Idealize.SL.Sem
open Idealize.ShloMosaic.ValueIdx

variable {F : FTy → Type} [FloatOps F]

/-! ## The pieces, as whole-array functions -/

/-- The source node of every edge, a negative one counted from the end, as a column of gather indices. -/
def srcIdx (e : (⟨S2x600000, .i32⟩ : BufTy).Contents (Elt F)) : (⟨S600000x1, .i32⟩ : BufTy).Contents (Elt F) :=
  broadcastInDim S600000x1 ![0] bcast_S600000_S600000x1_0 (select (cmpi .slt (shapeCast _ (extractStridedSlice S1x600000 ![0, 0] e slices_S2x600000_S1x600000_0_0) shapeCasts_S1x600000_S600000) (broadcastInDim S600000 ![] bcast_S_S600000 (constantI S_ 32 0#32))) (addi (shapeCast _ (extractStridedSlice S1x600000 ![0, 0] e slices_S2x600000_S1x600000_0_0) shapeCasts_S1x600000_S600000) (broadcastInDim S600000 ![] bcast_S_S600000 (constantI S_ 32 50000#32))) (shapeCast _ (extractStridedSlice S1x600000 ![0, 0] e slices_S2x600000_S1x600000_0_0) shapeCasts_S1x600000_S600000))

/-- The destination node of every edge, as a column of scatter indices. -/
def dstIdx (e : (⟨S2x600000, .i32⟩ : BufTy).Contents (Elt F)) : (⟨S600000x1, .i32⟩ : BufTy).Contents (Elt F) :=
  broadcastInDim S600000x1 ![0] bcast_S600000_S600000x1_0 (shapeCast _ (extractStridedSlice S1x600000 ![1, 0] e slices_S2x600000_S1x600000_1_0) shapeCasts_S1x600000_S600000)

/-- The rows of `h` at the edges' sources, summed into the edges' destinations. -/
def agg (e : (⟨S2x600000, .i32⟩ : BufTy).Contents (Elt F)) (h : (⟨S50000x128, .f32⟩ : BufTy).Contents (Elt F)) : (⟨S50000x128, .f32⟩ : BufTy).Contents (Elt F) :=
  Host.scatterAdd scatter_S50000x128_S600000x1_S600000x128_1_0_0_1 (broadcastInDim S50000x128 ![] bcast_S_S50000x128 (constant S_ .f32 0x00000000#32)) (dstIdx e) (Host.gather gather_S50000x128_S600000x1_S600000x128_1_0_n_n_0_1_1128 h (srcIdx e))

/-- The number of edges into each node, at least one. -/
def dmax (e : (⟨S2x600000, .i32⟩ : BufTy).Contents (Elt F)) : (⟨S50000, .f32⟩ : BufTy).Contents (Elt F) :=
  maximumf (Host.scatterAdd scatter_S50000_S600000x1_S600000_n_0_0_1 (broadcastInDim S50000 ![] bcast_S_S50000 (constant S_ .f32 0x00000000#32)) (dstIdx e) (broadcastInDim S600000 ![] bcast_S_S600000 (constant S_ .f32 0x3F800000#32))) (broadcastInDim S50000 ![] bcast_S_S50000 (constant S_ .f32 0x3F800000#32))

/-- The dense half of a layer: `((a / d) · Wlᵀ + b) + h · Wrᵀ`, the divisor a vector over the rows. -/
def dense (a h : (⟨S50000x128, .f32⟩ : BufTy).Contents (Elt F)) (d : (⟨S50000, .f32⟩ : BufTy).Contents (Elt F)) (wl wr : (⟨S128x128, .f32⟩ : BufTy).Contents (Elt F)) (b : (⟨S128, .f32⟩ : BufTy).Contents (Elt F)) : (⟨S50000x128, .f32⟩ : BufTy).Contents (Elt F) :=
  addf (addf (Host.dotGeneral dot_S50000x128_S128x128_S50000x128_1_0_0_1_n_n none (Host.divf a (broadcastInDim S50000x128 ![0, 1] bcast_S50000x1_S50000x128_0_1 (broadcastInDim S50000x1 ![0] bcast_S50000_S50000x1_0 d))) (transpose S128x128 [1, 0] wl transposes_S128x128_S128x128_1_0)) (broadcastInDim S50000x128 ![0, 1] bcast_S1x128_S50000x128_0_1 (broadcastInDim S1x128 ![1] bcast_S128_S1x128_1 b))) (Host.dotGeneral dot_S50000x128_S128x128_S50000x128_1_0_0_1_n_n none h (transpose S128x128 [1, 0] wr transposes_S128x128_S128x128_1_0))

/-- One layer of the reference. -/
def layer (e : (⟨S2x600000, .i32⟩ : BufTy).Contents (Elt F)) (h : (⟨S50000x128, .f32⟩ : BufTy).Contents (Elt F)) (wl wr : (⟨S128x128, .f32⟩ : BufTy).Contents (Elt F)) (b : (⟨S128, .f32⟩ : BufTy).Contents (Elt F)) : (⟨S50000x128, .f32⟩ : BufTy).Contents (Elt F) :=
  dense (agg e h) h (dmax e) wl wr b

/-- The maximum with zero. -/
def relu (y : (⟨S50000x128, .f32⟩ : BufTy).Contents (Elt F)) : (⟨S50000x128, .f32⟩ : BufTy).Contents (Elt F) :=
  maximumf y (broadcastInDim S50000x128 ![] bcast_S_S50000x128 (constant S_ .f32 0x00000000#32))

/-- The reference's result is the second layer of the first layer's positive part. -/
theorem res_eq (m : (ℓ : Loc nD τ sig) → Buf (Elt F) ℓ) (c : Dev nD) :
    Cert.ReferenceIdeal.Value.res_main_v58 m c
      = layer (m ((c.tc : Thread nD τ).loc main_arg1))
          (relu (layer (m ((c.tc : Thread nD τ).loc main_arg1)) (m ((c.tc : Thread nD τ).loc main_arg0))
            (m ((c.tc : Thread nD τ).loc main_arg2)) (m ((c.tc : Thread nD τ).loc main_arg4)) (m ((c.tc : Thread nD τ).loc main_arg3))))
          (m ((c.tc : Thread nD τ).loc main_arg5)) (m ((c.tc : Thread nD τ).loc main_arg7)) (m ((c.tc : Thread nD τ).loc main_arg6)) := rfl

/-! ## The dense half at an entry -/

/-- A vector over the rows, spread along the columns, reads the vector at the row. -/
theorem rows_at {α : Type} (y : S50000.Idx → α) (r : Fin 50000) (k : Fin 128) :
    broadcastInDim S50000x128 ![0, 1] bcast_S50000x1_S50000x128_0_1 (broadcastInDim S50000x1 ![0] bcast_S50000_S50000x1_0 y) (ix2 r k) = y (ix1 r) := by
  rw [broadcastInDim_apply _ bcast_S50000x1_S50000x128_0_1 _ (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])]
  exact broadcastInDim_apply _ bcast_S50000_S50000x1_0 y (ix2 r (0 : Fin 1)) (ix1 r) (fun a => match a with
    | ⟨0, _⟩ => by show r.val = if (50000 : Nat) = 1 then 0 else r.val; rw [if_neg (by decide)])

/-- A vector over the columns, spread along the rows, reads the vector at the column. -/
theorem cols_at {α : Type} (y : S128.Idx → α) (r : Fin 50000) (q : Fin 128) :
    broadcastInDim S50000x128 ![0, 1] bcast_S1x128_S50000x128_0_1 (broadcastInDim S1x128 ![1] bcast_S128_S1x128_1 y) (ix2 r q) = y (ix1 q) := by
  rw [broadcastInDim_apply _ bcast_S1x128_S50000x128_0_1 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])]
  exact broadcastInDim_apply _ bcast_S128_S1x128_1 y (ix2 (0 : Fin 1) q) (ix1 q) (fun a => match a with
    | ⟨0, _⟩ => by show q.val = if (128 : Nat) = 1 then 0 else q.val; rw [if_neg (by decide)])

/-- A product with a transposed weight matrix, at (r, q): Σₖ l[r,k] · w[q,k]. -/
theorem dotT_at (l : (⟨S50000x128, .f32⟩ : BufTy).Contents (Elt Ideal)) (w : (⟨S128x128, .f32⟩ : BufTy).Contents (Elt Ideal)) (r : Fin 50000) (q : Fin 128) :
    Host.dotGeneral (F := Ideal) (φ₁ := .f32) (φ₂ := .f32) dot_S50000x128_S128x128_S50000x128_1_0_0_1_n_n none l (transpose S128x128 [1, 0] w transposes_S128x128_S128x128_1_0) (ix2 r q)
      = ∑ k : Fin 128, l (ix2 r k) * w (ix2 q k) := by
  refine (Cert.ReferenceIdeal.Read.val_main_v29_apply l w (ix2 r q)).trans (Finset.sum_congr rfl fun k _ => ?_)
  rw [Cert.ReferenceIdeal.Read.val_main_v28_apply]
  have e1 : Cert.ReferenceIdeal.Read.lidx_main_v29 (ix2 r q) k = ix2 r k := funext fun a => by
    match a with | ⟨0, _⟩ => rfl | ⟨1, _⟩ => rfl
  have e2 : Cert.ReferenceIdeal.Read.idx_main_v28 (Cert.ReferenceIdeal.Read.ridx_main_v29 (ix2 r q) k) = ix2 q k := funext fun a => by
    match a with | ⟨0, _⟩ => rfl | ⟨1, _⟩ => rfl
  rw [e1, e2]

/-- The dense half of a layer at (r, q). -/
theorem dense_at (a h : (⟨S50000x128, .f32⟩ : BufTy).Contents (Elt Ideal)) (d : (⟨S50000, .f32⟩ : BufTy).Contents (Elt Ideal)) (wl wr : (⟨S128x128, .f32⟩ : BufTy).Contents (Elt Ideal)) (b : (⟨S128, .f32⟩ : BufTy).Contents (Elt Ideal)) (r : Fin 50000) (q : Fin 128) :
    dense (F := Ideal) a h d wl wr b (ix2 r q)
      = ((∑ k : Fin 128, Ideal.div (a (ix2 r k)) (d (ix1 r)) * wl (ix2 q k)) + b (ix1 q)) + ∑ k : Fin 128, h (ix2 r k) * wr (ix2 q k) := by
  unfold dense
  rw [addf_apply, addf_apply, dotT_at, dotT_at, cols_at]
  simp only [hostDivf_apply, rows_at d r]

end Cert.ReferenceIdeal.Layer

end
-- ==== Proof.Bridge.lean ====
/-
  The two spellings of the dense layer are one function.

  The kernel is handed the inverse degree as a column, inv[r,0] = 1 / d[r], the weight matrices already
  transposed, Wlᵀ[k,q] = Wl[q,k], and the bias as a row, b[0,q]; it multiplies the aggregated messages by the
  inverse degree. The reference divides them by d[r]. On the extended reals a quotient by a divisor that is not zero
  is the product with that divisor's inverse, and 1 / d is the inverse itself, so
      msg[r,k] · (1 / d[r]) = msg[r,k] / d[r]      whenever d[r] ≠ 0,
  with no finiteness asked of msg or of d. The divisor is max (deg, 1) ≥ 1, which is never zero.
-/
import proofs.«169460_j14465449853446_2_alg».proof.Proof.KernelRegions
import proofs.«169460_j14465449853446_2_alg».proof.Proof.RefLayer
import proofs.«169460_j14465449853446_2_alg».proof.Proof.LibKeepdims
import Idealize.ShloMosaic.Lib.IdealHost
import Idealize.ShloMosaic.Lib.Pipeline.Value
import Idealize.ShloMosaic.Lib.ValueIdx

noncomputable section

namespace Cert.Bridge

open Idealize.ShloMosaic Idealize.ShloMosaic.ValueIdx
open Cert.KernelIdeal
open Cert.KernelIdeal.Regions (denseEntry G0 G1 G0_at G1_at)

/-- A maximum with one is at least one, so it is not zero. -/
theorem max_one_ne_zero (a : EReal) : max a (Ideal.ofBits .f32 0x3F800000#32) ≠ 0 := by
  rw [Ideal.ofBits_one_f32]
  intro e
  have h : (1 : EReal) ≤ max a 1 := le_max_right a 1
  rw [e] at h
  exact absurd h (by simp)

/-- The dense layer over the kernel's operand forms is the reference's dense layer, entry by entry, when the
    column is the inverse of a divisor that is never zero. -/
theorem denseEntry_eq (a h : S50000x128.Idx → EReal) (d : S50000.Idx → EReal) (wl wr : S128x128.Idx → EReal) (b : S128.Idx → EReal)
    (inv : S50000x1.Idx → EReal) (wlT wrT : S128x128.Idx → EReal) (b1 : S1x128.Idx → EReal)
    (hinv : ∀ r : Fin 50000, inv (ix2 r (0 : Fin 1)) = Ideal.div 1 (d (ix1 r))) (hd : ∀ r : Fin 50000, d (ix1 r) ≠ 0)
    (hwl : ∀ k q : Fin 128, wlT (ix2 k q) = wl (ix2 q k)) (hwr : ∀ k q : Fin 128, wrT (ix2 k q) = wr (ix2 q k))
    (hb : ∀ q : Fin 128, b1 (ix2 (0 : Fin 1) q) = b (ix1 q)) (r : Fin 50000) (q : Fin 128) :
    denseEntry a h inv wlT wrT b1 r q = Cert.ReferenceIdeal.Layer.dense (F := Ideal) a h d wl wr b (ix2 r q) := by
  rw [Cert.ReferenceIdeal.Layer.dense_at]
  unfold denseEntry
  simp only [hinv, hwl, hwr, hb, Ideal.mul_one_div (hd r)]

section Forms

variable (sc1 : S50000.ShapeCasts S50000x1) (scb : S128.ShapeCasts S1x128) (tr : S128x128.Transposes [1, 0] S128x128)
  (bc : S_.BroadcastsInDim S50000 (![] : Fin 0 → Fin S50000.rank))

/-- The array of ones at a node. -/
theorem ones_at (r : Fin 50000) :
    broadcastInDim S50000 ![] bc (constant (F := Ideal) S_ .f32 0x3F800000#32) (ix1 r) = 1 := by
  rw [broadcastInDim_scalar_apply, constant_apply, Ideal.ofBits_one_f32]

/-- The inverse-degree column at (r, 0) is 1 / d[r]. -/
theorem inv_at (d : S50000.Idx → EReal) (r : Fin 50000) :
    shapeCast S50000x1 (Host.divf (F := Ideal) (φ := .f32) (broadcastInDim S50000 ![] bc (constant (F := Ideal) S_ .f32 0x3F800000#32)) d) sc1 (ix2 r (0 : Fin 1))
      = Ideal.div 1 (d (ix1 r)) := by
  rw [Cert.LibKeepdims.shapeCast_a_a1_apply (a := 50000) _ sc1 r (0 : Fin 1), hostDivf_apply, ones_at]

/-- A transposed weight matrix at (k, q) is the matrix at (q, k). -/
theorem transpose_at (w : S128x128.Idx → EReal) (k q : Fin 128) :
    transpose S128x128 [1, 0] w tr (ix2 k q) = w (ix2 q k) :=
  transpose_apply [1, 0] w tr (ix2 k q) (ix2 q k) (fun b => match b with
    | ⟨0, _⟩ => rfl
    | ⟨1, _⟩ => rfl)

/-- The bias as a row at (0, q) is the bias at q. -/
theorem bias_at (b : S128.Idx → EReal) (q : Fin 128) : shapeCast S1x128 b scb (ix2 (0 : Fin 1) q) = b (ix1 q) :=
  shapeCast_apply b scb (ix2 (0 : Fin 1) q) (ix1 q) (by
    rw [Shape.rowMajor_val_one, Shape.rowMajor_val_two]
    show q.val = (0 : Fin 1).val * 128 + q.val
    show q.val = 0 * 128 + q.val
    omega)

/-- The second call's output function of the kernel's operand forms is the reference's dense layer. -/
theorem G1_eq (a h : S50000x128.Idx → EReal) (d : S50000.Idx → EReal) (wl wr : S128x128.Idx → EReal) (b : S128.Idx → EReal)
    (hd : ∀ r : Fin 50000, d (ix1 r) ≠ 0) :
    G1 a h (shapeCast S50000x1 (Host.divf (F := Ideal) (φ := .f32) (broadcastInDim S50000 ![] bc (constant (F := Ideal) S_ .f32 0x3F800000#32)) d) sc1)
        (transpose S128x128 [1, 0] wl tr) (transpose S128x128 [1, 0] wr tr) (shapeCast S1x128 b scb)
      = Cert.ReferenceIdeal.Layer.dense (F := Ideal) a h d wl wr b := by
  funext i
  obtain ⟨r, q, rfl⟩ : ∃ (r : Fin 50000) (q : Fin 128), i = ix2 r q := ⟨i 0, i 1, eq_ix2 i⟩
  rw [G1_at]
  exact denseEntry_eq a h d wl wr b _ _ _ _ (inv_at sc1 bc d) hd (transpose_at tr wl) (transpose_at tr wr) (bias_at scb b) r q

/-- The first call's output function of the kernel's operand forms is the positive part of the reference's dense layer. -/
theorem G0_eq (a h : S50000x128.Idx → EReal) (d : S50000.Idx → EReal) (wl wr : S128x128.Idx → EReal) (b : S128.Idx → EReal)
    (hd : ∀ r : Fin 50000, d (ix1 r) ≠ 0) :
    G0 a h (shapeCast S50000x1 (Host.divf (F := Ideal) (φ := .f32) (broadcastInDim S50000 ![] bc (constant (F := Ideal) S_ .f32 0x3F800000#32)) d) sc1)
        (transpose S128x128 [1, 0] wl tr) (transpose S128x128 [1, 0] wr tr) (shapeCast S1x128 b scb)
      = Cert.ReferenceIdeal.Layer.relu (F := Ideal) (Cert.ReferenceIdeal.Layer.dense (F := Ideal) a h d wl wr b) := by
  funext i
  obtain ⟨r, q, rfl⟩ : ∃ (r : Fin 50000) (q : Fin 128), i = ix2 r q := ⟨i 0, i 1, eq_ix2 i⟩
  rw [G0_at, denseEntry_eq a h d wl wr b _ _ _ _ (inv_at sc1 bc d) hd (transpose_at tr wl) (transpose_at tr wr) (bias_at scb b) r q]
  rfl

end Forms

/-- The reference's divisor, max (deg, 1), is never zero. -/
theorem dmax_ne_zero (e : (⟨Cert.ReferenceIdeal.S2x600000, .i32⟩ : BufTy).Contents (Elt Ideal)) (r : Fin 50000) :
    Cert.ReferenceIdeal.Layer.dmax (F := Ideal) e (ix1 r) ≠ 0 := by
  unfold Cert.ReferenceIdeal.Layer.dmax
  rw [maximumf_apply, broadcastInDim_scalar_apply, constant_apply]
  exact max_one_ne_zero _

end Cert.Bridge

end
-- ==== Proof.KernelValue.lean ====
/-
  The kernel program's result as two layers of the reference.

  Before the first pallas_call the host computes, from the edge list e and the node features x: the aggregated
  messages agg e x (through a change of float format and back, the identity on the extended reals), the
  inverse-degree column 1 / max (deg, 1), the transposed weight matrices and the bias as a row. The first call
  leaves h = relu (layer e x) in its output array. Between the calls the host aggregates h the same way; the
  inverse-degree column is the one computed before. The second call leaves layer e h: the result.
-/
import proofs.«169460_j14465449853446_2_alg».proof.Proof.Gen.KernelIdeal.Frame
import proofs.«169460_j14465449853446_2_alg».proof.Proof.KernelRegions
import proofs.«169460_j14465449853446_2_alg».proof.Proof.Bridge
import proofs.«169460_j14465449853446_2_alg».proof.Proof.RefLayer
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)
open Cert.KernelIdeal.Regions (G0 G1 final0 final1)

variable (m : (ℓ : Loc nD τ sig) → Buf (Elt Ideal) ℓ) (ρ : Dev nD → PrngReg)

/-! ## The arrays the first call is entered with -/

set_option maxHeartbeats 4000000 in
/-- The aggregated messages of the node features. -/
theorem V1_msg (c : Dev nD) : V1 m ρ c main_v24 = Cert.ReferenceIdeal.Layer.agg (F := Ideal) (m ((c : Thread nD τ).loc main_arg1)) (m ((c : Thread nD τ).loc main_arg0)) := by
  show StableHlo.after hostOps0 (W0 m ρ c) (Proc.devRef .tc main_v24) = _
  after_results_simp
  rfl

set_option maxHeartbeats 4000000 in
/-- The node features themselves. -/
theorem V1_x (c : Dev nD) : V1 m ρ c main_arg0 = (m ((c : Thread nD τ).loc main_arg0)) := by
  show StableHlo.after hostOps0 (W0 m ρ c) (Proc.devRef .tc main_arg0) = _
  after_results_simp

set_option maxHeartbeats 4000000 in
/-- The inverse-degree column. -/
theorem V1_inv (c : Dev nD) : V1 m ρ c main_v12
    = shapeCast S50000x1 (Host.divf (F := Ideal) (φ := .f32) (broadcastInDim S50000 ![] bcast_S_S50000 (constant (F := Ideal) S_ .f32 0x3F800000#32)) (Cert.ReferenceIdeal.Layer.dmax (F := Ideal) (m ((c : Thread nD τ).loc main_arg1)))) shapeCasts_S50000_S50000x1 := by
  show StableHlo.after hostOps0 (W0 m ρ c) (Proc.devRef .tc main_v12) = _
  after_results_simp
  rfl

set_option maxHeartbeats 4000000 in
theorem V1_wl (c : Dev nD) : V1 m ρ c main_v25 = transpose S128x128 [1, 0] (m ((c : Thread nD τ).loc main_arg2)) transposes_S128x128_S128x128_1_0 := by
  show StableHlo.after hostOps0 (W0 m ρ c) (Proc.devRef .tc main_v25) = _
  after_results_simp

set_option maxHeartbeats 4000000 in
theorem V1_b (c : Dev nD) : V1 m ρ c main_v26 = shapeCast S1x128 (m ((c : Thread nD τ).loc main_arg3)) shapeCasts_S128_S1x128 := by
  show StableHlo.after hostOps0 (W0 m ρ c) (Proc.devRef .tc main_v26) = _
  after_results_simp
  rfl

set_option maxHeartbeats 4000000 in
theorem V1_wr (c : Dev nD) : V1 m ρ c main_v27 = transpose S128x128 [1, 0] (m ((c : Thread nD τ).loc main_arg4)) transposes_S128x128_S128x128_1_0 := by
  show StableHlo.after hostOps0 (W0 m ρ c) (Proc.devRef .tc main_v27) = _
  after_results_simp

/-- What the first call leaves in its output array: the positive part of the first layer. -/
theorem first (c : Dev nD) : (dat0 (V1 m ρ) c).arrAt 6 cfg0.N
    = Cert.ReferenceIdeal.Layer.relu (F := Ideal) (Cert.ReferenceIdeal.Layer.layer (F := Ideal) (m ((c : Thread nD τ).loc main_arg1)) (m ((c : Thread nD τ).loc main_arg0)) (m ((c : Thread nD τ).loc main_arg2)) (m ((c : Thread nD τ).loc main_arg4)) (m ((c : Thread nD τ).loc main_arg3))) := by
  rw [final0 (V1 m ρ) c, V1_msg, V1_x, V1_inv, V1_wl, V1_wr, V1_b]
  exact Cert.Bridge.G0_eq shapeCasts_S50000_S50000x1 shapeCasts_S128_S1x128 transposes_S128x128_S128x128_1_0 bcast_S_S50000 _ _ _ _ _ _
    (Cert.Bridge.dmax_ne_zero _)

/-! ## The arrays the second call is entered with -/

/-- The first call's output array, by name. -/
abbrev H (c : Dev nD) := (dat0 (V1 m ρ) c).arrAt 6 cfg0.N

theorem W2_h (c : Dev nD) : W2 m ρ c (Proc.devRef .tc main_v28) = H m ρ c := W2_arr m ρ c 6

set_option maxHeartbeats 4000000 in
/-- The edge sources and destinations reach the second stretch as the first one computed them. -/
theorem W2_src (c : Dev nD) : W2 m ρ c (Proc.devRef .tc main_v1)
    = shapeCast S600000 (extractStridedSlice S1x600000 ![0, 0] (m ((c : Thread nD τ).loc main_arg1)) slices_S2x600000_S1x600000_0_0) shapeCasts_S1x600000_S600000 := by
  rw [W2_of_ne m ρ c main_v1 (by decide)]
  show StableHlo.after hostOps0 (W0 m ρ c) (Proc.devRef .tc main_v1) = _
  after_results_simp
  rfl

set_option maxHeartbeats 4000000 in
theorem W2_dst (c : Dev nD) : W2 m ρ c (Proc.devRef .tc main_v3)
    = shapeCast S600000 (extractStridedSlice S1x600000 ![1, 0] (m ((c : Thread nD τ).loc main_arg1)) slices_S2x600000_S1x600000_1_0) shapeCasts_S1x600000_S600000 := by
  rw [W2_of_ne m ρ c main_v3 (by decide)]
  show StableHlo.after hostOps0 (W0 m ρ c) (Proc.devRef .tc main_v3) = _
  after_results_simp
  rfl

set_option maxHeartbeats 4000000 in
/-- The aggregated messages of the first call's output. -/
theorem V3_msg (c : Dev nD) : V3 m ρ c main_v40 = Cert.ReferenceIdeal.Layer.agg (F := Ideal) (m ((c : Thread nD τ).loc main_arg1)) (H m ρ c) := by
  show StableHlo.after hostOps1 (W2 m ρ c) (Proc.devRef .tc main_v40) = _
  after_results_simp
  rw [W2_h, W2_src, W2_dst]
  rfl

set_option maxHeartbeats 4000000 in
/-- The first call's output array, the second call's node features. -/
theorem V3_h (c : Dev nD) : V3 m ρ c main_v28 = H m ρ c := by
  show StableHlo.after hostOps1 (W2 m ρ c) (Proc.devRef .tc main_v28) = _
  after_results_simp
  exact W2_h m ρ c

set_option maxHeartbeats 4000000 in
/-- The inverse-degree column, as the first stretch computed it. -/
theorem V3_inv (c : Dev nD) : V3 m ρ c main_v12 = V1 m ρ c main_v12 := by
  show StableHlo.after hostOps1 (W2 m ρ c) (Proc.devRef .tc main_v12) = _
  after_results_simp
  exact (W2_arr m ρ c 1).trans (((dat0 (V1 m ρ) c).arrAt_in 1 rfl _).trans (A_eq0 (V1 m ρ) c 1))

set_option maxHeartbeats 4000000 in
theorem W2_arg5 (c : Dev nD) : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results_simp
set_option maxHeartbeats 4000000 in
theorem W2_arg6 (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results_simp
set_option maxHeartbeats 4000000 in
theorem W2_arg7 (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results_simp

set_option maxHeartbeats 4000000 in
theorem V3_wl (c : Dev nD) : V3 m ρ c main_v41 = transpose S128x128 [1, 0] (m ((c : Thread nD τ).loc main_arg5)) transposes_S128x128_S128x128_1_0 := by
  show StableHlo.after hostOps1 (W2 m ρ c) (Proc.devRef .tc main_v41) = _
  after_results_simp
  rw [W2_arg5]
set_option maxHeartbeats 4000000 in
theorem V3_b (c : Dev nD) : V3 m ρ c main_v42 = shapeCast S1x128 (m ((c : Thread nD τ).loc main_arg6)) shapeCasts_S128_S1x128 := by
  show StableHlo.after hostOps1 (W2 m ρ c) (Proc.devRef .tc main_v42) = _
  after_results_simp
  rw [W2_arg6]
  rfl
set_option maxHeartbeats 4000000 in
theorem V3_wr (c : Dev nD) : V3 m ρ c main_v43 = transpose S128x128 [1, 0] (m ((c : Thread nD τ).loc main_arg7)) transposes_S128x128_S128x128_1_0 := by
  show StableHlo.after hostOps1 (W2 m ρ c) (Proc.devRef .tc main_v43) = _
  after_results_simp
  rw [W2_arg7]

/-! ## The result -/

/-- What the second call leaves in the result array: the second layer of the first call's output. -/
theorem second (c : Dev nD) : (dat1 (V3 m ρ) c).arrAt 6 cfg1.N
    = Cert.ReferenceIdeal.Layer.layer (F := Ideal) (m ((c : Thread nD τ).loc main_arg1)) (H m ρ c) (m ((c : Thread nD τ).loc main_arg5)) (m ((c : Thread nD τ).loc main_arg7)) (m ((c : Thread nD τ).loc main_arg6)) := by
  rw [final1 (V3 m ρ) c, V3_msg, V3_h, V3_inv, V1_inv, V3_wl, V3_wr, V3_b]
  exact Cert.Bridge.G1_eq shapeCasts_S50000_S50000x1 shapeCasts_S128_S1x128 transposes_S128x128_S128x128_1_0 bcast_S_S50000 _ _ _ _ _ _
    (Cert.Bridge.dmax_ne_zero _)

/-- The result buffer at the last boundary is the second layer of the positive part of the first. -/
theorem result (c : Dev nD) : W4 m ρ c (Proc.devRef .tc main_v44)
    = Cert.ReferenceIdeal.Layer.layer (F := Ideal) (m ((c : Thread nD τ).loc main_arg1))
        (Cert.ReferenceIdeal.Layer.relu (F := Ideal) (Cert.ReferenceIdeal.Layer.layer (F := Ideal) (m ((c : Thread nD τ).loc main_arg1)) (m ((c : Thread nD τ).loc main_arg0)) (m ((c : Thread nD τ).loc main_arg2)) (m ((c : Thread nD τ).loc main_arg4)) (m ((c : Thread nD τ).loc main_arg3))))
        (m ((c : Thread nD τ).loc main_arg5)) (m ((c : Thread nD τ).loc main_arg7)) (m ((c : Thread nD τ).loc main_arg6)) := by
  have h := second m ρ c
  rw [show H m ρ c = _ from first m ρ c] at h
  exact (W4_arr m ρ c 6).trans h

end Cert.KernelIdeal.Result

end
-- ==== Proof.lean ====
/-
  The graph layer kernel against its reference, on the extended reals.

  Both programs apply the same layer twice to the node features x over the edge list e:
      layer e h = ((agg e h / max (deg e, 1)) · Wlᵀ + b) + h · Wrᵀ,      result = layer₂ e (relu (layer₁ e x)),
  where agg e h sums the source rows of h into the destination rows and deg e counts the edges into each node. The
  reference computes this on the host. The kernel program computes agg and 1 / max (deg, 1) on the host and the rest
  in two pallas_calls tiled over ten blocks of 5000 rows, multiplying by the inverse degree where the reference
  divides by the degree, and passing through bf16 where the reference stays in f32. On the extended reals a change
  of float format is the identity, a block's matrix product is the same sum as the whole product's row, and
  x · (1 / d) = x / d for every divisor d ≠ 0; max (deg, 1) ≥ 1 is never zero. So the two results are equal entry
  by entry, for every input: the precondition is not used.

  The kernel program's run ends with its result array at what the second call's write-backs leave (KernelRun);
  each call's output array is one function of the arrays it reads (KernelRegions, over KernelBlock); read through the
  host operations these are two layers of the reference (KernelValue, by Bridge); the reference's run ends at the
  same two layers (RefLayer).
-/
import proofs.«169460_j14465449853446_2_alg».proof.Defs
import proofs.«169460_j14465449853446_2_alg».proof.Proof.Gen.Kernel
import proofs.«169460_j14465449853446_2_alg».proof.Proof.Gen.Kernel.Skeleton
import proofs.«169460_j14465449853446_2_alg».proof.Proof.Gen.Kernel.Launch
import proofs.«169460_j14465449853446_2_alg».proof.Proof.Gen.Kernel.Points
import proofs.«169460_j14465449853446_2_alg».proof.Proof.Gen.Kernel.Frame
import proofs.«169460_j14465449853446_2_alg».proof.Proof.Gen.KernelIdeal
import proofs.«169460_j14465449853446_2_alg».proof.Proof.Gen.KernelIdeal.Skeleton
import proofs.«169460_j14465449853446_2_alg».proof.Proof.Gen.KernelIdeal.Launch
import proofs.«169460_j14465449853446_2_alg».proof.Proof.Gen.KernelIdeal.Points
import proofs.«169460_j14465449853446_2_alg».proof.Proof.Gen.KernelIdeal.Frame
import proofs.«169460_j14465449853446_2_alg».proof.Proof.Gen.ReferenceIdeal
import proofs.«169460_j14465449853446_2_alg».proof.Proof.Gen.ReferenceIdeal.Run
import proofs.«169460_j14465449853446_2_alg».proof.Proof.Gen.ReferenceIdeal.Read
import proofs.«169460_j14465449853446_2_alg».proof.Proof.Gen.Pre_finite_inputs
import proofs.«169460_j14465449853446_2_alg».proof.Proof.KernelRun
import proofs.«169460_j14465449853446_2_alg».proof.Proof.KernelValue
import proofs.«169460_j14465449853446_2_alg».proof.Proof.RefLayer
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the second layer of the positive part of the first, of arguments that agree. -/
theorem algebraic : Cert.algebraic_KernelIdeal_ReferenceIdeal := by
  intro m ρ m' ρ' _ hagree
  refine ⟨fun c => Cert.ReferenceIdeal.Layer.layer (F := Ideal) (m ((c.tc : Thread Cert.KernelIdeal.nD Cert.KernelIdeal.τ).loc Cert.KernelIdeal.main_arg1))
      (Cert.ReferenceIdeal.Layer.relu (F := Ideal) (Cert.ReferenceIdeal.Layer.layer (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg3))))
      (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Result.result m ρ c), (h c).2⟩)
      (Cert.KernelIdeal.Run.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Layer.res_eq, (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
